-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S8192x1024 .f32) (main_arg1 : FVec F S8192x1024 .f32) (main_arg2 : FVec F S1024x1024 .f32) (main_arg3 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1x1024, .f32⟩
  | .hbm, ⟨5, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .f32 = 32 ∨ (Rect.block (s := S8192x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x1024.size a
  hwx0_4 : ∀ i : grid0.Coords, EltTy.bits .f32 = 32 ∨ (Rect.block (s := S8192x1024) S1024x1024.size (cc0_transform_4 i) (hinb0_4 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  dot_S8192x1024_S1024x1024_S8192x1024_1_1_0_0_n_n_wf : DotDims.WF S8192x1024 S1024x1024 S8192x1024 [1] [1] [0] [0] [] []

variable [Facts₀]

def dot_S8192x1024_S1024x1024_S8192x1024_1_1_0_0_n_n : DotDims S8192x1024 S1024x1024 S8192x1024 where
  lhsContracting := [1]
  rhsContracting := [1]
  lhsNonContracting := [0]
  rhsNonContracting := [0]
  lhsBatch := []
  rhsBatch := []
  wf := dot_S8192x1024_S1024x1024_S8192x1024_1_1_0_0_n_n_wf

class Facts : Prop extends Facts₀ where

variable [Facts]
-- ==== Proof.Gate.lean ====
/-
  The coherence gate as one function of its four argument arrays, and the scalar facts that join its two
  spellings.

  For a batch of states ψ = re + i·im (one state per row, 1024 amplitudes each), a real coupling matrix W and a
  bias vector, entry (a, b) of the gate is

      σ( re[a,b] · (Σ_k re[a,k]·W[b,k]) + im[a,b] · (Σ_k im[a,k]·W[b,k]) + bias[b] ),      σ(x) = 1 / (1 + e^(−x)),

  that is σ of Re(ψ[a,b] · conj((ψ Wᵀ)[a,b])) + bias[b]. Row a of the result depends on row a of re and of im
  only, on all of W and on all of the bias: so the formula is stated for any number of rows, and a block of rows
  of the result is the same formula of the same block of rows of re and im.

  One program scales the argument of σ by the float 1.0 and applies σ as one operation; the other divides it by
  1.0 and spells σ out as a negation, an exponential, a sum with 1.0 and a quotient of 1.0. On the extended reals
  x · 1 = x and x / 1 = x for every x, infinite or not, and σ IS that expression, so no finiteness is needed.
-/
import Idealize.ShloMosaic.PureOps.Ideal
import Idealize.ShloMosaic.Lib.ValueIdx

noncomputable section

open scoped BigOperators
open Idealize.ShloMosaic Idealize.ShloMosaic.ValueIdx

namespace Cert.Gate

/-- Row `a` of `ψ` against row `b` of `W`: entry (a, b) of ψ·Wᵀ. -/
def corr {n : ℕ} (ψ : FVec Ideal ⟨2, ![n, 1024]⟩ .f32) (W : FVec Ideal ⟨2, ![1024, 1024]⟩ .f32)
    (a : Fin n) (b : Fin 1024) : EReal :=
  ∑ k : Fin 1024, ψ (ix2 a k) * W (ix2 b k)

/-- Entry (a, b) of the gate of `n` states, the bias given by its column. -/
def gateAt {n : ℕ} (re im : FVec Ideal ⟨2, ![n, 1024]⟩ .f32) (W : FVec Ideal ⟨2, ![1024, 1024]⟩ .f32)
    (bias : Fin 1024 → EReal) (a : Fin n) (b : Fin 1024) : EReal :=
  Ideal.logistic (re (ix2 a b) * corr re W a b + im (ix2 a b) * corr im W a b + bias b)

/-- The gate of the whole batch, as an array. -/
def gate (re im : FVec Ideal ⟨2, ![8192, 1024]⟩ .f32) (W : FVec Ideal ⟨2, ![1024, 1024]⟩ .f32)
    (bias : FVec Ideal ⟨1, ![1024]⟩ .f32) : FVec Ideal ⟨2, ![8192, 1024]⟩ .f32 :=
  fun i => gateAt re im W (fun b => bias (ix1 b)) (i 0) (i 1)

theorem gate_ix2 (re im : FVec Ideal ⟨2, ![8192, 1024]⟩ .f32) (W : FVec Ideal ⟨2, ![1024, 1024]⟩ .f32)
    (bias : FVec Ideal ⟨1, ![1024]⟩ .f32) (a : Fin 8192) (b : Fin 1024) :
    gate re im W bias (ix2 a b) = gateAt re im W (fun b => bias (ix1 b)) a b := rfl

/-- The word of the float 1.0 denotes the real number one. -/
theorem one_word : Ideal.ofBits .f32 0x3F800000#32 = 1 := by
  simp [Ideal.ofBits, Ideal.ieee, -EReal.coe_mul]; norm_num

/-- Dividing by one changes no extended real. -/
theorem div_one (x : EReal) : Ideal.div x 1 = x := by
  rw [Ideal.div, if_neg one_ne_zero, inv_one, mul_one]

/-- σ spelt out: one over one plus the exponential of the negation. -/
theorem logistic_spelt (x : EReal) : Ideal.div 1 (1 + Ideal.exp (-x)) = Ideal.logistic x := rfl

end Cert.Gate

end
-- ==== Proof.RefGate.lean ====
/-
  The reference computes the gate. Its program is nineteen whole-array operations; read at an index (a, b) they
  are: the two matrix products as sums over the contracted coordinate k of ψ[a,k]·W[b,k]; the products with
  re[a,b] and im[a,b] and their sum; the bias, first laid out as a row and then repeated down the rows, read at
  its column b; the quotient by the constant 1.0, which changes nothing; and σ spelt as 1.0 / (1.0 + exp(−x)).
-/
import proofs.«149774_j31653908972268_1_alg».proof.Proof.Gen.ReferenceIdeal.Read
import proofs.«149774_j31653908972268_1_alg».proof.Proof.Gate

noncomputable section

open scoped BigOperators
open Idealize.ShloMosaic Idealize.ShloMosaic.ValueIdx

namespace Cert.RefGate

open Cert.ReferenceIdeal Cert.ReferenceIdeal.Read Cert.Gate

/-- The reference's result array, as a function of its four argument arrays, is the gate. -/
theorem val_eq_gate (x0 x1 : (⟨S8192x1024, .f32⟩ : BufTy).Contents (Elt Ideal))
    (x2 : (⟨S1024x1024, .f32⟩ : BufTy).Contents (Elt Ideal)) (x3 : (⟨S1024, .f32⟩ : BufTy).Contents (Elt Ideal)) :
    val_main_v15 (F := Ideal) x0 x1 x2 x3 = gate x0 x1 x2 x3 := by
  funext i
  obtain ⟨a, b, rfl⟩ : ∃ (a : Fin 8192) (b : Fin 1024), i = ix2 a b := ⟨i 0, i 1, eq_ix2 i⟩
  -- where each layout operation and each product reads its operands
  have hb : idx_main_v5 (idx_main_v6 (ix2 a b)) = ix1 b :=
    funext fun d => Fin.ext (by match d with | ⟨0, _⟩ => rfl)
  have hl0 : ∀ k : Fin 1024, lidx_main_v0 (ix2 a b) k = ix2 a k := fun k =>
    funext fun d => Fin.ext (by match d with | ⟨0, _⟩ => rfl | ⟨1, _⟩ => rfl)
  have hr0 : ∀ k : Fin 1024, ridx_main_v0 (ix2 a b) k = ix2 b k := fun k =>
    funext fun d => Fin.ext (by match d with | ⟨0, _⟩ => rfl | ⟨1, _⟩ => rfl)
  have hl1 : ∀ k : Fin 1024, lidx_main_v1 (ix2 a b) k = ix2 a k := fun k =>
    funext fun d => Fin.ext (by match d with | ⟨0, _⟩ => rfl | ⟨1, _⟩ => rfl)
  have hr1 : ∀ k : Fin 1024, ridx_main_v1 (ix2 a b) k = ix2 b k := fun k =>
    funext fun d => Fin.ext (by match d with | ⟨0, _⟩ => rfl | ⟨1, _⟩ => rfl)
  rw [val_main_v15_apply, val_main_v14_apply, val_main_cst_1_apply, val_main_v13_apply, val_main_v12_apply,
    val_main_cst_0_apply, val_main_v11_apply, val_main_v10_apply, val_main_v9_apply, val_main_v8_apply,
    val_main_cst_apply, val_main_v7_apply, val_main_v6_apply, val_main_v5_apply, val_main_v4_apply,
    val_main_v2_apply, val_main_v3_apply, val_main_v0_apply, val_main_v1_apply, gate_ix2]
  unfold gateAt corr
  simp only [hb, hl0, hr0, hl1, hr1, Ideal.ofBits_def, one_word, Ideal.hostDivf_def, Cert.Gate.div_one,
    Ideal.hostNegf_def, Ideal.negf_def, Ideal.hostUnary_exp_def, Ideal.addf_def, Ideal.mulf_def, logistic_spelt]

end Cert.RefGate

end
-- ==== Proof.LibMatmulRows.lean ====
/-
  A general reading lemma: at the ideal values, a matrix product that contracts the LAST axis of both operands
  (a product with the second operand transposed, [m, k] · [n, k]ᵀ), accumulated into the zero splat, read at an
  index, is the sum over the contracted coordinate of the products of the two rows' entries.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.LibMatmulRows

/-- A `tpu.matmul` of an [m, k] operand with an [n, k] operand, contracting axis 1 of both, into the f32 zero splat,
    read at (a, b) at the ideal values: the sum over `c : Fin k` of the first operand at (a, c) times the second at
    (b, c) — for any extents and operand formats. `w` is the record's well-formedness, which a program states. -/
theorem matmul_rows_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B (constant (F := Ideal) ⟨2, ![m, n]⟩ .f32 0x00000000#32) (ix2 a b)
      = ∑ c : Fin k, A (ix2 a c) * B (ix2 b c) := by
  show FloatOps.matmul _ prec A B (constant (F := Ideal) ⟨2, ![m, n]⟩ .f32 0x00000000#32) (ix2 a b) = _
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.LibMatmulRows

end
-- ==== Proof.BodyGate.lean ====
/-
  The kernel body computes the gate of its block of rows. At one grid point the body holds a block of 1024 rows
  of re and of im, the whole of W and the bias as a one-row matrix. Its one store writes, at (p, q):

    * two matrix products contracting the last axis of both operands, accumulated from zero: the operands are
      first narrowed to a shorter float format, which on the extended reals is the identity, so entry (p, q) is
      Σ_k ψ[p,k]·W[q,k] for ψ the block of re, respectively of im;
    * the products with re[p,q] and im[p,q], their sum, and the bias row repeated down the rows, read at column q;
    * the product with the float 1.0, which changes nothing, and σ as one operation.

  So the stored value is the gate's formula of the block.
-/
import proofs.«149774_j31653908972268_1_alg».proof.Proof.Gen.KernelIdeal.Skeleton
import proofs.«149774_j31653908972268_1_alg».proof.Proof.Gate
import proofs.«149774_j31653908972268_1_alg».proof.Proof.LibMatmulRows
import Idealize.ShloMosaic.Lib.ValueLayout
import Idealize.ShloMosaic.Lib.Pipeline.Value

noncomputable section

open scoped BigOperators
open Idealize.ShloMosaic Idealize.ShloMosaic.ValueIdx

namespace Cert.BodyGate

open Cert.KernelIdeal Cert.KernelIdeal.Gen Cert.Gate

/-- Entry (p, q) of a block's product with Wᵀ, the operands narrowed first. -/
theorem product_apply (ψ W : FVec Ideal S1024x1024 .f32) (p q : Fin 1024) :
    matmul dot_S1024x1024_S1024x1024_S1024x1024_1_1_0_0_n_n none (truncf .bf16 ψ bitsLt_bf16_f32)
      (truncf .bf16 W bitsLt_bf16_f32) (constant (F := Ideal) S1024x1024 .f32 0x00000000#32) (ix2 p q) = corr ψ W p q :=
  Cert.LibMatmulRows.matmul_rows_apply dot_S1024x1024_S1024x1024_S1024x1024_1_1_0_0_n_n_wf none
    (truncf .bf16 ψ bitsLt_bf16_f32) (truncf .bf16 W bitsLt_bf16_f32) p q

/-- The bias row, repeated down the rows, read at (p, q), is the row at column q. -/
theorem bias_apply (r : FVec Ideal S1x1024 .f32) (p q : Fin 1024) :
    broadcastTo S1024x1024 (shapeCast S1x1024 r shapeCasts_S1x1024_S1x1024) broadcasts_S1x1024_S1024x1024 (ix2 p q)
      = r (ix2 (0 : Fin 1) q) := by
  rw [shapeCast_self]
  exact broadcastTo_1b_ab_apply r broadcasts_S1x1024_S1024x1024 p q

/-- What the body stores at (p, q) is the gate's formula of the blocks it loaded. -/
theorem stored_apply (re im W : FVec Ideal S1024x1024 .f32) (r : FVec Ideal S1x1024 .f32) (p q : Fin 1024) :
    k0_pay1 (F := Ideal) re im W r (ix2 p q) = gateAt re im W (fun b => r (ix2 (0 : Fin 1) b)) p q := by
  unfold k0_pay1 gateAt
  show Ideal.logistic ((re (ix2 p q) * _ + im (ix2 p q) * _ + _) * Ideal.ofBits .f32 0x3F800000#32) = _
  rw [one_word, mul_one]
  refine congrArg Ideal.logistic ?_
  refine congrArg₂ (· + ·) (congrArg₂ (· + ·) (congrArg (re (ix2 p q) * ·) ?_) (congrArg (im (ix2 p q) * ·) ?_)) ?_
  · exact product_apply re W p q
  · exact product_apply im W p q
  · exact bias_apply r p q

end Cert.BodyGate

end
-- ==== Proof.GateArray.lean ====
/-
  From blocks to the array. The grid has eight points; point t holds rows 1024·t … 1024·t + 1023 of re and of im
  (all 1024 columns), the whole of W, and the bias laid out as one row by a reshape done before the launch; it
  writes back rows 1024·t … 1024·t + 1023 of the result. The body stores the gate's formula of what it holds, and
  row a of the gate depends on row a of re and im only: so what point t writes back is its block of rows of the
  gate of the whole arrays. Row a lies in the block of point a / 1024, so the eight blocks cover the result, which
  therefore ends holding the gate.
-/
import proofs.«149774_j31653908972268_1_alg».proof.Proof.Gen.KernelIdeal.Value
import proofs.«149774_j31653908972268_1_alg».proof.Proof.BodyGate
import Idealize.ShloMosaic.Lib.ValueLayout
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.GateArray

open Cert.KernelIdeal Cert.KernelIdeal.Gen Cert.Gate

variable (m : (ℓ : Loc nD τ sig) → Buf (Elt Ideal) ℓ) (ρ : Dev nD → PrngReg)

theorem zero_offsets : (![0, 0] : Fin 2 → Nat) = fun _ => 0 := funext fun a => by fin_cases a <;> rfl

/-- Which block each window holds at point `t`: block row `t` of re, of im and of the result, and the one block of
    W and of the bias row. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The bias as the launch finds it: the argument vector laid out as one row. -/
theorem bias_row (c : Dev nD) : (V m c main_v0 : S1x1024.Idx → EReal)
    = shapeCast S1x1024 (m ((c : Thread nD τ).loc main_arg3) : S1024.Idx → EReal) shapeCasts_S1024_S1x1024 := by
  dsimp only [Gen.V, Gen.hostOps0]
  after_results
  rfl

/-- Row `p` of point `t`'s block of re is row 1024·t + p of re. -/
theorem re_block (c : Dev nD) (t : Fin cfg0.N) (p q : Fin 1024) (a : Fin 8192) (ha : a.val = 1024 * t.val + p.val) :
    (iblk m c 0 t : S1024x1024.Idx → EReal) (ix2 p q)
      = (m ((c : Thread nD τ).loc main_arg0) : S8192x1024.Idx → EReal) (ix2 a q) := by
  obtain ⟨e0, e1, -⟩ := block_indices t
  unfold iblk
  rw [View.read_apply]
  show V m c main_arg0 _ = _
  rw [V_main_arg0]
  refine congrArg _ (funext fun d => Fin.ext ?_)
  match d with
  | ⟨0, _⟩ => show win0_0.index t (0 : Fin 2) * 1024 + 1 * p.val = a.val; rw [e0, ha]; omega
  | ⟨1, _⟩ => show win0_0.index t (1 : Fin 2) * 1024 + 1 * q.val = q.val; rw [e1]; omega

/-- Row `p` of point `t`'s block of im is row 1024·t + p of im. -/
theorem im_block (c : Dev nD) (t : Fin cfg0.N) (p q : Fin 1024) (a : Fin 8192) (ha : a.val = 1024 * t.val + p.val) :
    (iblk m c 1 t : S1024x1024.Idx → EReal) (ix2 p q)
      = (m ((c : Thread nD τ).loc main_arg1) : S8192x1024.Idx → EReal) (ix2 a q) := by
  obtain ⟨-, -, e0, e1, -⟩ := block_indices t
  unfold iblk
  rw [View.read_apply]
  show V m c main_arg1 _ = _
  rw [V_main_arg1]
  refine congrArg _ (funext fun d => Fin.ext ?_)
  match d with
  | ⟨0, _⟩ => show win0_1.index t (0 : Fin 2) * 1024 + 1 * p.val = a.val; rw [e0, ha]; omega
  | ⟨1, _⟩ => show win0_1.index t (1 : Fin 2) * 1024 + 1 * q.val = q.val; rw [e1]; omega

/-- Every point holds the whole of W. -/
theorem w_block (c : Dev nD) (t : Fin cfg0.N) (p q : Fin 1024) :
    (iblk m c 2 t : S1024x1024.Idx → EReal) (ix2 p q)
      = (m ((c : Thread nD τ).loc main_arg2) : S1024x1024.Idx → EReal) (ix2 p q) := by
  obtain ⟨-, -, -, -, e0, e1, -⟩ := block_indices t
  unfold iblk
  rw [View.read_apply]
  show V m c main_arg2 _ = _
  rw [V_main_arg2]
  refine congrArg _ (funext fun d => Fin.ext ?_)
  match d with
  | ⟨0, _⟩ => show win0_2.index t (0 : Fin 2) * 1024 + 1 * p.val = p.val; rw [e0]; omega
  | ⟨1, _⟩ => show win0_2.index t (1 : Fin 2) * 1024 + 1 * q.val = q.val; rw [e1]; omega

/-- Every point holds the bias row, whose column `q` is entry `q` of the bias vector. -/
theorem bias_block (c : Dev nD) (t : Fin cfg0.N) (q : Fin 1024) :
    (iblk m c 3 t : S1x1024.Idx → EReal) (ix2 (0 : Fin 1) q)
      = (m ((c : Thread nD τ).loc main_arg3) : S1024.Idx → EReal) (ix1 q) := by
  obtain ⟨-, -, -, -, -, -, e0, e1, -⟩ := block_indices t
  unfold iblk
  rw [View.read_apply]
  show V m c main_v0 _ = _
  rw [bias_row]
  refine (congrArg _ (funext fun d => Fin.ext ?_)).trans
    (shapeCast_a_1a_apply (m ((c : Thread nD τ).loc main_arg3) : S1024.Idx → EReal) shapeCasts_S1024_S1x1024 (0 : Fin 1) q)
  match d with
  | ⟨0, _⟩ => show win0_3.index t (0 : Fin 2) * 1 + 1 * 0 = 0; rw [e0]
  | ⟨1, _⟩ => show win0_3.index t (1 : Fin 2) * 1024 + 1 * q.val = q.val; rw [e1]; omega

/-- The gate's formula of the blocks a point holds is the gate of the whole arrays at the block's rows: row `a` of
    the gate reads row `a` of re and of im only. Stated over any arrays and blocks related that way. -/
theorem gate_of_blocks (RE IM : FVec Ideal S8192x1024 .f32) (W : FVec Ideal S1024x1024 .f32) (B : FVec Ideal S1024 .f32)
    (re im w : FVec Ideal S1024x1024 .f32) (r : FVec Ideal S1x1024 .f32) (o : ℕ)
    (hre : ∀ (p q : Fin 1024) (a : Fin 8192), a.val = 1024 * o + p.val → re (ix2 p q) = RE (ix2 a q))
    (him : ∀ (p q : Fin 1024) (a : Fin 8192), a.val = 1024 * o + p.val → im (ix2 p q) = IM (ix2 a q))
    (hw : ∀ p q : Fin 1024, w (ix2 p q) = W (ix2 p q))
    (hr : ∀ q : Fin 1024, r (ix2 (0 : Fin 1) q) = B (ix1 q))
    (p q : Fin 1024) (a : Fin 8192) (ha : a.val = 1024 * o + p.val) :
    gateAt re im w (fun b => r (ix2 (0 : Fin 1) b)) p q = gate RE IM W B (ix2 a q) := by
  rw [gate_ix2]
  unfold gateAt corr
  simp only [hre p _ a ha, him p _ a ha, hw, hr]

/-- WHAT POINT `t` WRITES BACK is rows 1024·t … 1024·t + 1023 of the gate of the argument arrays. -/
theorem flushed_eq (c : Dev nD) (t : Fin cfg0.N) :
    (dats m 0 c).flushed 4 t = ((cfg0.win 4).blk t).view.read (Elt Ideal)
      (gate (m ((c : Thread nD τ).loc main_arg0)) (m ((c : Thread nD τ).loc main_arg1))
        (m ((c : Thread nD τ).loc main_arg2)) (m ((c : Thread nD τ).loc main_arg3))) := by
  rw [Cert.KernelIdeal.Value.flushed4]
  unfold out0_4
  rw [View.canon_unit_zero zero_offsets]
  simp only [View.ld_unit_zero (S := S1024x1024) zero_offsets, View.ld_unit_zero (S := S1x1024) zero_offsets]
  funext j
  obtain ⟨p, q, rfl⟩ : ∃ (p q : Fin 1024), j = (ix2 p q : S1024x1024.Idx) := ⟨j 0, j 1, eq_ix2 j⟩
  obtain ⟨-, -, -, -, -, -, -, -, e0, e1⟩ := block_indices t
  have ht : t.val < 8 := Nat.lt_of_lt_of_eq t.isLt (show cfg0.N = 8 from N_0)
  have hp : p.val < 1024 := p.isLt
  show k0_pay1 (F := Ideal) (iblk m c 0 t) (iblk m c 1 t) (iblk m c 2 t) (iblk m c 3 t) (ix2 p q)
    = gate _ _ _ _ (((cfg0.win 4).blk t).view.emb (ix2 p q))
  have hrow : ((cfg0.win 4).blk t).view.emb (ix2 p q)
      = (ix2 (⟨1024 * t.val + p.val, by omega⟩ : Fin 8192) q : S8192x1024.Idx) :=
    funext fun d => Fin.ext (by
      match d with
      | ⟨0, _⟩ => show win0_4.index t (0 : Fin 2) * 1024 + 1 * p.val = 1024 * t.val + p.val; rw [e0]; omega
      | ⟨1, _⟩ => show win0_4.index t (1 : Fin 2) * 1024 + 1 * q.val = q.val; rw [e1]; omega)
  rw [hrow]
  exact (Cert.BodyGate.stored_apply (iblk m c 0 t) (iblk m c 1 t) (iblk m c 2 t) (iblk m c 3 t) p q).trans
    (gate_of_blocks (m ((c : Thread nD τ).loc main_arg0)) (m ((c : Thread nD τ).loc main_arg1))
      (m ((c : Thread nD τ).loc main_arg2)) (m ((c : Thread nD τ).loc main_arg3))
      (iblk m c 0 t) (iblk m c 1 t) (iblk m c 2 t) (iblk m c 3 t) t.val
      (fun p q a ha => re_block m c t p q a ha) (fun p q a ha => im_block m c t p q a ha)
      (fun p q => w_block m c t p q) (fun q => bias_block m c t q) p q ⟨1024 * t.val + p.val, by omega⟩ rfl)

/-- An index of the result is in point `t`'s block iff each coordinate is in the block's range on its axis. -/
theorem mem_block (t : Fin cfg0.N) (i : S8192x1024.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v1).slice (win0_4.rect t)).set ↔ _
  rw [View.set_slice_whole, Rect.mem_set_unit]
  exact Iff.rfl

/-- Row `a` of the result is in the block of point `a / 1024`, which writes back: the eight blocks cover the result. -/
theorem covered (i : S8192x1024.Idx) :
    ∃ t : Fin cfg0.N, (cfg0.win 4).flush t = true ∧ i ∈ ((cfg0.win 4).blk t).view.set := by
  have h0 : (i 0).val < 8192 := idx2_lt0 i
  have h1 : (i 1).val < 1024 := idx2_lt1 i
  have hN : (i 0).val / 1024 < cfg0.N := by rw [show cfg0.N = 8 from N_0]; omega
  obtain ⟨-, -, -, -, -, -, -, -, e0, e1⟩ := block_indices ⟨(i 0).val / 1024, hN⟩
  refine ⟨⟨(i 0).val / 1024, hN⟩, flush0_4 _, ?_⟩
  rw [mem_block]
  intro a
  match a with
  | ⟨0, _⟩ =>
    show win0_4.index ⟨(i 0).val / 1024, hN⟩ (0 : Fin 2) * 1024 ≤ (i 0).val
      ∧ (i 0).val < win0_4.index ⟨(i 0).val / 1024, hN⟩ (0 : Fin 2) * 1024 + 1024
    rw [e0]; show (i 0).val / 1024 * 1024 ≤ (i 0).val ∧ (i 0).val < (i 0).val / 1024 * 1024 + 1024; omega
  | ⟨1, _⟩ =>
    show win0_4.index ⟨(i 0).val / 1024, hN⟩ (1 : Fin 2) * 1024 ≤ (i 1).val
      ∧ (i 1).val < win0_4.index ⟨(i 0).val / 1024, hN⟩ (1 : Fin 2) * 1024 + 1024
    rw [e1]; omega

/-- So the result array ends holding the gate of the argument arrays. -/
theorem final (c : Dev nD) : (dats m 0 c).arrAt 4 cfg0.N
    = gate (m ((c : Thread nD τ).loc main_arg0)) (m ((c : Thread nD τ).loc main_arg1))
        (m ((c : Thread nD τ).loc main_arg2)) (m ((c : Thread nD τ).loc main_arg3)) :=
  (dats m 0 c).arrAt_eq_of_cover 4 _ (fun t _ => flushed_eq m c t) covered

/-- The kernel's run, read: it terminates with the result at the gate of the arguments, the arguments unchanged. -/
theorem run : θ_run defs (onTc (τ := τ) (main (F := Ideal))) ⟨m, fun _ => 0, ρ⟩ fun r => ∀ c : Dev nD,
      r.2.mem ((c : Thread nD τ).loc main_v1)
        = gate (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.GateArray

end
-- ==== Proof.lean ====
/-
  The certificate of the coherence gate kernel against its reference.

  Both programs compute, for states ψ = re + i·im (8192 rows of 1024 amplitudes), a real coupling matrix W and a
  bias vector,

      out[a,b] = σ( re[a,b]·(Σ_k re[a,k]·W[b,k]) + im[a,b]·(Σ_k im[a,k]·W[b,k]) + bias[b] ),   σ(x) = 1/(1 + e^(−x)).

  The kernel works on eight blocks of 1024 rows; at each it forms the two products ψ·Wᵀ from zero with the operands
  narrowed to a shorter float format (the identity on the extended reals), scales the argument of σ by the float 1.0
  and applies σ as one operation. The reference forms the two products over the whole batch, divides the argument
  of σ by 1.0 and spells σ out. On the extended reals x·1 = x / 1 = x for every x and σ is by definition the spelt
  expression; the sums are the same sums in the same order. So the two results are one function of the arguments
  (`Cert.Gate.gate`), with no use of the inputs' finiteness:

    * Proof/Gate.lean      the function, and the scalar facts;
    * Proof/RefGate.lean   the reference's nineteen operations read at an index are that function;
    * Proof/BodyGate.lean  what the kernel body stores at an index is that function of its blocks;
    * Proof/GateArray.lean the blocks are rows of the arrays, the eight write-backs cover the result.

  The three frames are the programs' runs with the results dropped; the idealization rewrote no operation, so
  there is nothing to preserve.
-/
import proofs.«149774_j31653908972268_1_alg».proof.Defs
import proofs.«149774_j31653908972268_1_alg».proof.Proof.Gen.Kernel
import proofs.«149774_j31653908972268_1_alg».proof.Proof.Gen.Kernel.Frame
import proofs.«149774_j31653908972268_1_alg».proof.Proof.Gen.KernelIdeal
import proofs.«149774_j31653908972268_1_alg».proof.Proof.Gen.KernelIdeal.Frame
import proofs.«149774_j31653908972268_1_alg».proof.Proof.Gen.KernelIdeal.Value
import proofs.«149774_j31653908972268_1_alg».proof.Proof.Gen.ReferenceIdeal
import proofs.«149774_j31653908972268_1_alg».proof.Proof.Gen.ReferenceIdeal.Run
import proofs.«149774_j31653908972268_1_alg».proof.Proof.Gen.ReferenceIdeal.Read
import proofs.«149774_j31653908972268_1_alg».proof.Proof.Gen.Pre_finite_inputs
import proofs.«149774_j31653908972268_1_alg».proof.Proof.RefGate
import proofs.«149774_j31653908972268_1_alg».proof.Proof.GateArray

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the four arguments both programs end with the gate of those arguments. -/
theorem algebraic : Cert.algebraic_KernelIdeal_ReferenceIdeal := by
  intro m ρ m' ρ' _ hagree
  refine ⟨fun c => Cert.Gate.gate (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)),
    Cert.GateArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.RefGate.val_eq_gate,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
